-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x128x128x16 : Shape := ⟨5, ![4, 16, 128, 128, 16]⟩
abbrev S_ : Shape := ⟨0, ![]⟩

class Facts : Prop where
  bcast_S_S4x16x128x128x16 : S_.BroadcastsInDim S4x16x128x128x16 (![] : Fin 0 → Fin S4x16x128x128x16.rank)
  reducesTo_S4x16x128x128x16_S_d0_1_2_3_4 : S4x16x128x128x16.ReducesTo [0, 1, 2, 3, 4] S_
  h_S_ : 0 < S_.numel

variable [Facts]

def fn {F : FTy → Type} [FloatOps F] (main_arg0 : FVec F S4x16x128x128x16 .f32) : IVec S_ 1 :=
  let main_v0 : FVec F S4x16x128x128x16 .f32 := Host.absf main_arg0
  let main_cst : FVec F S_ .f32 := constant S_ .f32 0x7F800000#32
  let main_v1 : FVec F S4x16x128x128x16 .f32 := broadcastInDim S4x16x128x128x16 ![] bcast_S_S4x16x128x128x16 main_cst
  let main_v2 : IVec S4x16x128x128x16 1 := cmpf .olt main_v0 main_v1
  let main_c : IVec S_ 1 := constantI S_ 1 1#1
  let main_v3 : IVec S_ 1 := (fun x v => Host.reduce IntOp.andi x v reducesTo_S4x16x128x128x16_S_d0_1_2_3_4 h_S_) main_v2 main_c
  main_v3
-- ==== Kernel.lean ====
abbrev S4x16x128x128x16 : Shape := ⟨5, ![4, 16, 128, 128, 16]⟩
abbrev S1x16x128x8x16 : Shape := ⟨5, ![1, 16, 128, 8, 16]⟩
abbrev S1x16x126x8x16 : Shape := ⟨5, ![1, 16, 126, 8, 16]⟩
abbrev S1x16x1x8x16 : Shape := ⟨5, ![1, 16, 1, 8, 16]⟩
abbrev S1x16x4x128x16 : Shape := ⟨5, ![1, 16, 4, 128, 16]⟩
abbrev S1x16x4x126x16 : Shape := ⟨5, ![1, 16, 4, 126, 16]⟩
abbrev S1x16x4x1x16 : Shape := ⟨5, ![1, 16, 4, 1, 16]⟩
abbrev S1x14x4x128x16 : Shape := ⟨5, ![1, 14, 4, 128, 16]⟩
abbrev S1x1x4x128x16 : Shape := ⟨5, ![1, 1, 4, 128, 16]⟩

abbrev nBuf : Space → Nat
  | .hbm => 4
  | .vmem => 12
  | .smem => 0
  | _ => 0

abbrev bufTy : (tb : Table) → Fin (tcTables nBuf tb) → BufTy
  | .hbm, ⟨0, _⟩ => ⟨S4x16x128x128x16, .f32⟩
  | .hbm, ⟨1, _⟩ => ⟨S4x16x128x128x16, .f32⟩
  | .hbm, ⟨2, _⟩ => ⟨S4x16x128x128x16, .f32⟩
  | .hbm, ⟨3, _⟩ => ⟨S4x16x128x128x16, .f32⟩
  | .local _ .vmem, ⟨0, _⟩ => ⟨S1x16x128x8x16, .f32⟩
  | .local _ .vmem, ⟨1, _⟩ => ⟨S1x16x128x8x16, .f32⟩
  | .local _ .vmem, ⟨2, _⟩ => ⟨S1x16x128x8x16, .f32⟩
  | .local _ .vmem, ⟨3, _⟩ => ⟨S1x16x128x8x16, .f32⟩
  | .local _ .vmem, ⟨4, _⟩ => ⟨S1x16x4x128x16, .f32⟩
  | .local _ .vmem, ⟨5, _⟩ => ⟨S1x16x4x128x16, .f32⟩
  | .local _ .vmem, ⟨6, _⟩ => ⟨S1x16x4x128x16, .f32⟩
  | .local _ .vmem, ⟨7, _⟩ => ⟨S1x16x4x128x16, .f32⟩
  | .local _ .vmem, ⟨8, _⟩ => ⟨S1x16x4x128x16, .f32⟩
  | .local _ .vmem, ⟨9, _⟩ => ⟨S1x16x4x128x16, .f32⟩
  | .local _ .vmem, ⟨10, _⟩ => ⟨S1x16x4x128x16, .f32⟩
  | .local _ .vmem, ⟨11, _⟩ => ⟨S1x16x4x128x16, .f32⟩
  | _, _ => ⟨S4x16x128x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x16x128x8x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 32], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 2 → Memref sig .tc .vmem S1x16x4x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x4x128x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![4, 32], ![false, false]⟩

def cc2_transform_0 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc2_transform_1 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage2_0 : Fin 2 → Memref sig .tc .vmem S1x16x4x128x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x4x128x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

class Facts₀ : Prop where
  inb_S1x16x128x8x16_S1x16x126x8x16_0_0_2_0_0 : ∀ a, (![0, 0, 2, 0, 0] : Fin 5 → Nat) a + S1x16x126x8x16.size a ≤ S1x16x128x8x16.size a
  h_S1x16x126x8x16 : 0 < S1x16x126x8x16.numel
  inb_S1x16x128x8x16_S1x16x126x8x16_0_0_0_0_0 : ∀ a, (![0, 0, 0, 0, 0] : Fin 5 → Nat) a + S1x16x126x8x16.size a ≤ S1x16x128x8x16.size a
  inb_S1x16x128x8x16_S1x16x126x8x16_0_0_1_0_0 : ∀ a, (![0, 0, 1, 0, 0] : Fin 5 → Nat) a + S1x16x126x8x16.size a ≤ S1x16x128x8x16.size a
  inb_S1x16x128x8x16_S1x16x1x8x16_0_0_1_0_0 : ∀ a, (![0, 0, 1, 0, 0] : Fin 5 → Nat) a + S1x16x1x8x16.size a ≤ S1x16x128x8x16.size a
  h_S1x16x1x8x16 : 0 < S1x16x1x8x16.numel
  inb_S1x16x128x8x16_S1x16x1x8x16_0_0_0_0_0 : ∀ a, (![0, 0, 0, 0, 0] : Fin 5 → Nat) a + S1x16x1x8x16.size a ≤ S1x16x128x8x16.size a
  inb_S1x16x128x8x16_S1x16x1x8x16_0_0_126_0_0 : ∀ a, (![0, 0, 126, 0, 0] : Fin 5 → Nat) a + S1x16x1x8x16.size a ≤ S1x16x128x8x16.size a
  inb_S1x16x128x8x16_S1x16x1x8x16_0_0_127_0_0 : ∀ a, (![0, 0, 127, 0, 0] : Fin 5 → Nat) a + S1x16x1x8x16.size a ≤ S1x16x128x8x16.size a
  inb_S1x16x4x128x16_S1x16x4x126x16_0_0_0_2_0 : ∀ a, (![0, 0, 0, 2, 0] : Fin 5 → Nat) a + S1x16x4x126x16.size a ≤ S1x16x4x128x16.size a
  h_S1x16x4x126x16 : 0 < S1x16x4x126x16.numel
  inb_S1x16x4x128x16_S1x16x4x126x16_0_0_0_0_0 : ∀ a, (![0, 0, 0, 0, 0] : Fin 5 → Nat) a + S1x16x4x126x16.size a ≤ S1x16x4x128x16.size a
  inb_S1x16x4x128x16_S1x16x4x126x16_0_0_0_1_0 : ∀ a, (![0, 0, 0, 1, 0] : Fin 5 → Nat) a + S1x16x4x126x16.size a ≤ S1x16x4x128x16.size a
  inb_S1x16x4x128x16_S1x16x4x1x16_0_0_0_1_0 : ∀ a, (![0, 0, 0, 1, 0] : Fin 5 → Nat) a + S1x16x4x1x16.size a ≤ S1x16x4x128x16.size a
  h_S1x16x4x1x16 : 0 < S1x16x4x1x16.numel
  inb_S1x16x4x128x16_S1x16x4x1x16_0_0_0_0_0 : ∀ a, (![0, 0, 0, 0, 0] : Fin 5 → Nat) a + S1x16x4x1x16.size a ≤ S1x16x4x128x16.size a
  inb_S1x16x4x128x16_S1x16x4x1x16_0_0_0_126_0 : ∀ a, (![0, 0, 0, 126, 0] : Fin 5 → Nat) a + S1x16x4x1x16.size a ≤ S1x16x4x128x16.size a
  inb_S1x16x4x128x16_S1x16x4x1x16_0_0_0_127_0 : ∀ a, (![0, 0, 0, 127, 0] : Fin 5 → Nat) a + S1x16x4x1x16.size a ≤ S1x16x4x128x16.size a
  inb_S1x16x4x128x16_S1x14x4x128x16_0_2_0_0_0 : ∀ a, (![0, 2, 0, 0, 0] : Fin 5 → Nat) a + S1x14x4x128x16.size a ≤ S1x16x4x128x16.size a
  h_S1x14x4x128x16 : 0 < S1x14x4x128x16.numel
  inb_S1x16x4x128x16_S1x14x4x128x16_0_0_0_0_0 : ∀ a, (![0, 0, 0, 0, 0] : Fin 5 → Nat) a + S1x14x4x128x16.size a ≤ S1x16x4x128x16.size a
  inb_S1x16x4x128x16_S1x14x4x128x16_0_1_0_0_0 : ∀ a, (![0, 1, 0, 0, 0] : Fin 5 → Nat) a + S1x14x4x128x16.size a ≤ S1x16x4x128x16.size a
  inb_S1x16x4x128x16_S1x1x4x128x16_0_1_0_0_0 : ∀ a, (![0, 1, 0, 0, 0] : Fin 5 → Nat) a + S1x1x4x128x16.size a ≤ S1x16x4x128x16.size a
  h_S1x1x4x128x16 : 0 < S1x1x4x128x16.numel
  inb_S1x16x4x128x16_S1x1x4x128x16_0_0_0_0_0 : ∀ a, (![0, 0, 0, 0, 0] : Fin 5 → Nat) a + S1x1x4x128x16.size a ≤ S1x16x4x128x16.size a
  inb_S1x16x4x128x16_S1x1x4x128x16_0_14_0_0_0 : ∀ a, (![0, 14, 0, 0, 0] : Fin 5 → Nat) a + S1x1x4x128x16.size a ≤ S1x16x4x128x16.size a
  inb_S1x16x4x128x16_S1x1x4x128x16_0_15_0_0_0 : ∀ a, (![0, 15, 0, 0, 0] : Fin 5 → Nat) a + S1x1x4x128x16.size a ≤ S1x16x4x128x16.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x8x16.size a ≤ S4x16x128x128x16.size a
  hwx0_0 : ∀ i : grid0.Coords, EltTy.bits .f32 = 32 ∨ (Rect.block (s := S4x16x128x128x16) S1x16x128x8x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x8x16.size a ≤ S4x16x128x128x16.size a
  hwx0_1 : ∀ i : grid0.Coords, EltTy.bits .f32 = 32 ∨ (Rect.block (s := S4x16x128x128x16) S1x16x128x8x16.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x4x128x16.size a ≤ S4x16x128x128x16.size a
  hwx1_0 : ∀ i : grid1.Coords, EltTy.bits .f32 = 32 ∨ (Rect.block (s := S4x16x128x128x16) S1x16x4x128x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x4x128x16.size a ≤ S4x16x128x128x16.size a
  hwx1_1 : ∀ i : grid1.Coords, EltTy.bits .f32 = 32 ∨ (Rect.block (s := S4x16x128x128x16) S1x16x4x128x16.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x4x128x16.size a ≤ S4x16x128x128x16.size a
  hwx2_0 : ∀ i : grid2.Coords, EltTy.bits .f32 = 32 ∨ (Rect.block (s := S4x16x128x128x16) S1x16x4x128x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x4x128x16.size a ≤ S4x16x128x128x16.size a
  hwx2_1 : ∀ i : grid2.Coords, EltTy.bits .f32 = 32 ∨ (Rect.block (s := S4x16x128x128x16) S1x16x4x128x16.size (cc2_transform_1 i) (hinb2_1 i)).WholeWords (EltTy.packing .f32)

variable [Facts₀]

abbrev win0_0 : Pipeline.Window sig grid0 :=
  Pipeline.Window.ofSpec (Memref.whole main_arg0) S1x16x128x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x128x8x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x16x4x128x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x16x4x128x16.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg0) S1x16x4x128x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x16x4x128x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S4x16x128x128x16 : Shape := ⟨5, ![4, 16, 128, 128, 16]⟩
abbrev S_ : Shape := ⟨0, ![]⟩
abbrev S4x16x130x128x16 : Shape := ⟨5, ![4, 16, 130, 128, 16]⟩
abbrev S4x16x128x130x16 : Shape := ⟨5, ![4, 16, 128, 130, 16]⟩
abbrev S4x18x128x128x16 : Shape := ⟨5, ![4, 18, 128, 128, 16]⟩

abbrev nBuf : Space → Nat
  | .hbm => 37
  | .vmem => 0
  | .smem => 0
  | _ => 0

abbrev bufTy : (tb : Table) → Fin (tcTables nBuf tb) → BufTy
  | .hbm, ⟨0, _⟩ => ⟨S4x16x128x128x16, .f32⟩
  | .hbm, ⟨1, _⟩ => ⟨S_, .i32⟩
  | .hbm, ⟨2, _⟩ => ⟨S_, .f32⟩
  | .hbm, ⟨3, _⟩ => ⟨S4x16x130x128x16, .f32⟩
  | .hbm, ⟨4, _⟩ => ⟨S4x16x128x128x16, .f32⟩
  | .hbm, ⟨5, _⟩ => ⟨S_, .f32⟩
  | .hbm, ⟨6, _⟩ => ⟨S4x16x128x128x16, .f32⟩
  | .hbm, ⟨7, _⟩ => ⟨S4x16x128x128x16, .f32⟩
  | .hbm, ⟨8, _⟩ => ⟨S4x16x128x128x16, .f32⟩
  | .hbm, ⟨9, _⟩ => ⟨S_, .f32⟩
  | .hbm, ⟨10, _⟩ => ⟨S4x16x128x128x16, .f32⟩
  | .hbm, ⟨11, _⟩ => ⟨S4x16x128x128x16, .f32⟩
  | .hbm, ⟨12, _⟩ => ⟨S4x16x128x128x16, .f32⟩
  | .hbm, ⟨13, _⟩ => ⟨S_, .i32⟩
  | .hbm, ⟨14, _⟩ => ⟨S_, .f32⟩
  | .hbm, ⟨15, _⟩ => ⟨S4x16x128x130x16, .f32⟩
  | .hbm, ⟨16, _⟩ => ⟨S4x16x128x128x16, .f32⟩
  | .hbm, ⟨17, _⟩ => ⟨S_, .f32⟩
  | .hbm, ⟨18, _⟩ => ⟨S4x16x128x128x16, .f32⟩
  | .hbm, ⟨19, _⟩ => ⟨S4x16x128x128x16, .f32⟩
  | .hbm, ⟨20, _⟩ => ⟨S4x16x128x128x16, .f32⟩
  | .hbm, ⟨21, _⟩ => ⟨S_, .f32⟩
  | .hbm, ⟨22, _⟩ => ⟨S4x16x128x128x16, .f32⟩
  | .hbm, ⟨23, _⟩ => ⟨S4x16x128x128x16, .f32⟩
  | .hbm, ⟨24, _⟩ => ⟨S4x16x128x128x16, .f32⟩
  | .hbm, ⟨25, _⟩ => ⟨S_, .i32⟩
  | .hbm, ⟨26, _⟩ => ⟨S_, .f32⟩
  | .hbm, ⟨27, _⟩ => ⟨S4x18x128x128x16, .f32⟩
  | .hbm, ⟨28, _⟩ => ⟨S4x16x128x128x16, .f32⟩
  | .hbm, ⟨29, _⟩ => ⟨S_, .f32⟩
  | .hbm, ⟨30, _⟩ => ⟨S4x16x128x128x16, .f32⟩
  | .hbm, ⟨31, _⟩ => ⟨S4x16x128x128x16, .f32⟩
  | .hbm, ⟨32, _⟩ => ⟨S4x16x128x128x16, .f32⟩
  | .hbm, ⟨33, _⟩ => ⟨S_, .f32⟩
  | .hbm, ⟨34, _⟩ => ⟨S4x16x128x128x16, .f32⟩
  | .hbm, ⟨35, _⟩ => ⟨S4x16x128x128x16, .f32⟩
  | .hbm, ⟨36, _⟩ => ⟨S4x16x128x128x16, .f32⟩
  | _, _ => ⟨S4x16x128x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_call2_v0 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  pads_S4x16x128x128x16_S4x16x130x128x16_000_000_110_000_000 : S4x16x128x128x16.Pads (![0, 0, 1, 0, 0] : Fin 5 → Nat) ![0, 0, 1, 0, 0] ![0, 0, 0, 0, 0] S4x16x130x128x16
  h_S_ : 0 < S_.numel
  slices_S4x16x130x128x16_S4x16x128x128x16_0_0_0_0_0 : S4x16x130x128x16.Slices ![0, 0, 0, 0, 0] S4x16x128x128x16
  bcast_S_S4x16x128x128x16 : S_.BroadcastsInDim S4x16x128x128x16 (![] : Fin 0 → Fin S4x16x128x128x16.rank)
  slices_S4x16x130x128x16_S4x16x128x128x16_0_0_2_0_0 : S4x16x130x128x16.Slices ![0, 0, 2, 0, 0] S4x16x128x128x16
  pads_S4x16x128x128x16_S4x16x128x130x16_000_000_000_110_000 : S4x16x128x128x16.Pads (![0, 0, 0, 1, 0] : Fin 5 → Nat) ![0, 0, 0, 1, 0] ![0, 0, 0, 0, 0] S4x16x128x130x16
  slices_S4x16x128x130x16_S4x16x128x128x16_0_0_0_0_0 : S4x16x128x130x16.Slices ![0, 0, 0, 0, 0] S4x16x128x128x16
  slices_S4x16x128x130x16_S4x16x128x128x16_0_0_0_2_0 : S4x16x128x130x16.Slices ![0, 0, 0, 2, 0] S4x16x128x128x16
  pads_S4x16x128x128x16_S4x18x128x128x16_000_110_000_000_000 : S4x16x128x128x16.Pads (![0, 1, 0, 0, 0] : Fin 5 → Nat) ![0, 1, 0, 0, 0] ![0, 0, 0, 0, 0] S4x18x128x128x16
  slices_S4x18x128x128x16_S4x16x128x128x16_0_0_0_0_0 : S4x18x128x128x16.Slices ![0, 0, 0, 0, 0] S4x16x128x128x16
  slices_S4x18x128x128x16_S4x16x128x128x16_0_2_0_0_0 : S4x18x128x128x16.Slices ![0, 2, 0, 0, 0] S4x16x128x128x16

variable [Facts₀]

class Facts : Prop extends Facts₀ where

variable [Facts]
-- ==== Proof.RegionsRun.lean ====
/-
  The idealized kernel's run with its three result arrays NAMED.

  The program is three pallas_calls, one per differenced axis, each reading the one argument array and writing
  its own result array. The generated frame follows the buffers' contents through the three regions: W1, W2, W3
  are the contents after the first, second and third region, each region replacing only its own windows'
  arrays by what its write-backs leave. Here the same run is stated with a stronger post: at the end the
  three result arrays hold what the last boundary W3 says, and the argument is as launched. Since no later
  region touches an earlier region's result, W3 at the k-th result is what the k-th pipeline leaves in it.
-/
import proofs.«143421_j23957327577310_2_alg».proof.Proof.Gen.KernelIdeal.Frame

set_option maxRecDepth 16384

noncomputable section

namespace Cert.KernelIdeal.Outputs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The last boundary at each result array -/

/-- The first result array is written by the first region only: after all three it holds what the first
    pipeline's write-backs left. -/
theorem W3_main_v0 (c : Dev nD) :
    W3 m ρ c (Proc.devRef .tc main_v0) = (dat0 (V0 m ρ) c).arrAt 1 cfg0.N :=
  calc W3 m ρ c (Proc.devRef .tc main_v0)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 1 cfg0.N := W1_arr m ρ c 1

/-- The second result array is written by the second region only. -/
theorem W3_main_v1 (c : Dev nD) :
    W3 m ρ c (Proc.devRef .tc main_v1) = (dat1 (V1 m ρ) c).arrAt 1 cfg1.N :=
  calc W3 m ρ c (Proc.devRef .tc main_v1)
    _ = W2 m ρ c (Proc.devRef .tc main_v1) := W3_of_ne m ρ c main_v1 (by decide)
    _ = (dat1 (V1 m ρ) c).arrAt 1 cfg1.N := W2_arr m ρ c 1

/-- The third result array is written by the third region. -/
theorem W3_main_v2 (c : Dev nD) :
    W3 m ρ c (Proc.devRef .tc main_v2) = (dat2 (V2 m ρ) c).arrAt 1 cfg2.N :=
  W3_arr m ρ c 1

/-- Every region finds the argument array as launched: no region writes it. -/
theorem V0_main_arg0 (c : Dev nD) : V0 m ρ c main_arg0 = m ((c : Thread nD τ).loc main_arg0) := rfl

theorem V1_main_arg0 (c : Dev nD) : V1 m ρ c main_arg0 = m ((c : Thread nD τ).loc main_arg0) :=
  (W1_arr m ρ c 0).trans (((dat0 (V0 m ρ) c).arrAt_in 0 rfl _).trans (A_eq0 (V0 m ρ) c 0))

theorem V2_main_arg0 (c : Dev nD) : V2 m ρ c main_arg0 = m ((c : Thread nD τ).loc main_arg0) :=
  ((W2_arr m ρ c 0).trans (((dat1 (V1 m ρ) c).arrAt_in 0 rfl _).trans (A_eq1 (V1 m ρ) c 0))).trans (V1_main_arg0 m ρ c)

/-! ## The run -/

set_option backward.isDefEq.respectTransparency.types false in
/-- Every weakly fair execution of the program terminates, nothing faulting, with each result array at what its
    pipeline's write-backs leave and the argument unchanged. -/
theorem run : θ_run defs (onTc (τ := τ) (main (F := F))) ⟨m, fun _ => 0, ρ⟩ (fun r => ∀ c : Dev nD,
      r.2.mem ((c.tc : Thread nD τ).loc main_v0) = (dat0 (V0 m ρ) c).arrAt 1 cfg0.N
      ∧ r.2.mem ((c.tc : Thread nD τ).loc main_v1) = (dat1 (V1 m ρ) c).arrAt 1 cfg1.N
      ∧ r.2.mem ((c.tc : Thread nD τ).loc main_v2) = (dat2 (V2 m ρ) c).arrAt 1 cfg2.N
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v0 (by decide))).trans (W3_main_v0 m ρ c),
       (h c _ (mem_uc main_v1 (by decide))).trans (W3_main_v1 m ρ c),
       (h c _ (mem_uc main_v2 (by decide))).trans (W3_main_v2 m ρ c),
       (h c _ (mem_uc main_arg0 (by decide))).trans (W3_main_arg0 m ρ c)⟩)

end Cert.KernelIdeal.Outputs

end
-- ==== Proof.LibCentralDiff.lean ====
/-
  The central difference along one axis of an array of extended reals, with zero padding at both ends:
  at an index i and an axis a of extent n,
      centralDiff a x i = above a x i - below a x i,
  where "above" is x one step further along a (zero when i is at the last coordinate) and "below" is x
  one step back (zero at coordinate zero). In the interior this is x[i+1] - x[i-1], at coordinate zero x[1],
  at the last coordinate -x[n-2].

  Stated over an arbitrary shape, so that one definition serves a whole array and a block of it; the lemmas
  below say what the difference is when the neighbour is NAMED (any index with the right coordinates), and
  that the difference of a block spanning the whole axis is the block of the array's difference.
-/
import Idealize.ShloMosaic.PureOps.Ideal

noncomputable section

namespace Cert.FiniteDiff

open Idealize.ShloMosaic

variable {s : Shape}

/-- The index i with its coordinate on axis a replaced by k. -/
def setAxis (i : s.Idx) (a : Fin s.rank) (k : Nat) (h : k < s.size a) : s.Idx :=
  Function.update i a ⟨k, h⟩

theorem setAxis_same (i : s.Idx) (a : Fin s.rank) (k : Nat) (h : k < s.size a) :
    ((setAxis i a k h) a).val = k := by
  unfold setAxis; rw [Function.update_self]

theorem setAxis_ne (i : s.Idx) (a : Fin s.rank) (k : Nat) (h : k < s.size a) {b : Fin s.rank} (hb : b ≠ a) :
    (setAxis i a k h) b = i b := by
  unfold setAxis; rw [Function.update_of_ne hb]

/-- An index is (setAxis i a k) as soon as it has coordinate k on a and i's coordinates elsewhere. -/
theorem eq_setAxis (i j : s.Idx) (a : Fin s.rank) (k : Nat) (h : k < s.size a)
    (ha : (j a).val = k) (hb : ∀ b, b ≠ a → (j b).val = (i b).val) : j = setAxis i a k h := by
  funext b
  by_cases hba : b = a
  · subst hba; exact Fin.ext (by rw [ha, setAxis_same])
  · rw [setAxis_ne _ _ _ _ hba]; exact Fin.ext (hb b hba)

/-- The neighbour one step further along a, zero past the end. -/
def above (a : Fin s.rank) (x : s.Idx → EReal) (i : s.Idx) : EReal :=
  if h : (i a).val + 1 < s.size a then x (setAxis i a ((i a).val + 1) h) else 0

/-- The neighbour one step back along a, zero before the start. -/
def below (a : Fin s.rank) (x : s.Idx → EReal) (i : s.Idx) : EReal :=
  if h : 0 < (i a).val then x (setAxis i a ((i a).val - 1) (by have := (i a).isLt; omega)) else 0

/-- The zero-padded central difference along axis a. -/
def centralDiff (a : Fin s.rank) (x : s.Idx → EReal) : s.Idx → EReal :=
  fun i => above a x i - below a x i

theorem above_eq (a : Fin s.rank) (x : s.Idx → EReal) (i j : s.Idx) (h : (i a).val + 1 < s.size a)
    (ha : (j a).val = (i a).val + 1) (hb : ∀ b, b ≠ a → (j b).val = (i b).val) : above a x i = x j := by
  unfold above; rw [dif_pos h, eq_setAxis i j a _ h ha hb]

theorem above_eq_zero (a : Fin s.rank) (x : s.Idx → EReal) (i : s.Idx) (h : ¬ (i a).val + 1 < s.size a) :
    above a x i = 0 := by
  unfold above; rw [dif_neg h]

theorem below_eq (a : Fin s.rank) (x : s.Idx → EReal) (i j : s.Idx) (h : 0 < (i a).val)
    (ha : (j a).val + 1 = (i a).val) (hb : ∀ b, b ≠ a → (j b).val = (i b).val) : below a x i = x j := by
  unfold below
  rw [dif_pos h, eq_setAxis i j a ((i a).val - 1) (by have := (i a).isLt; omega) (by omega) hb]

theorem below_eq_zero (a : Fin s.rank) (x : s.Idx → EReal) (i : s.Idx) (h : ¬ 0 < (i a).val) :
    below a x i = 0 := by
  unfold below; rw [dif_neg h]

/-! ## A block that spans the whole axis

If e places the indices of a block t into the array s, adding an offset on each axis, with offset zero on
axis a and the block as long as the array there, then the difference of the block's contents is the block of
the array's difference: the neighbours of a block element along a are inside the same block. -/

theorem centralDiff_block {t : Shape} (hr : t.rank = s.rank) (a : Fin s.rank) (X : s.Idx → EReal)
    (e : t.Idx → s.Idx) (off : Fin s.rank → Nat)
    (he : ∀ y b, ((e y) b).val = off b + (y (b.cast hr.symm)).val)
    (h0 : off a = 0) (hsz : t.size (a.cast hr.symm) = s.size a) (y : t.Idx) :
    centralDiff (a.cast hr.symm) (fun y => X (e y)) y = centralDiff a X (e y) := by
  have hya : ((e y) a).val = (y (a.cast hr.symm)).val := by rw [he, h0, Nat.zero_add]
  have hne : ∀ b : Fin s.rank, b ≠ a → b.cast hr.symm ≠ a.cast hr.symm := fun b hb hc =>
    hb (Fin.ext (by have := congrArg Fin.val hc; simpa using this))
  unfold centralDiff
  congr 1
  · by_cases h : (y (a.cast hr.symm)).val + 1 < t.size (a.cast hr.symm)
    · have h' : ((e y) a).val + 1 < s.size a := by rw [hya, ← hsz]; exact h
      rw [above_eq a X (e y) (e (setAxis y (a.cast hr.symm) _ h)) h'
        (by rw [he, h0, Nat.zero_add, setAxis_same, hya])
        (fun b hb => by rw [he, he, setAxis_ne _ _ _ _ (hne b hb)])]
      unfold above; rw [dif_pos h]
    · have h' : ¬ ((e y) a).val + 1 < s.size a := by rw [hya, ← hsz]; exact h
      rw [above_eq_zero _ _ _ h', above_eq_zero _ _ _ h]
  · by_cases h : 0 < (y (a.cast hr.symm)).val
    · have h' : 0 < ((e y) a).val := by rw [hya]; exact h
      rw [below_eq a X (e y) (e (setAxis y (a.cast hr.symm) ((y (a.cast hr.symm)).val - 1)
          (by have := (y (a.cast hr.symm)).isLt; omega))) h'
        (by rw [he, h0, Nat.zero_add, setAxis_same, hya]; omega)
        (fun b hb => by rw [he, he, setAxis_ne _ _ _ _ (hne b hb)])]
      unfold below; rw [dif_pos h]
    · have h' : ¬ 0 < ((e y) a).val := by rw [hya]; exact h
      rw [below_eq_zero _ _ _ h', below_eq_zero _ _ _ h]

end Cert.FiniteDiff

end
-- ==== Proof.LibCentralDiffPieces.lean ====
/-
  What the three stores of a central-difference body hold, over any shape and axis.

  A body that differences along axis a of a block writes three rectangles of the output block, each a
  unit-stride rectangle of the same extents off the differenced axis:
    * the interior rows 1 .. n-2, holding (rows 2 .. n-1 of the input) - (rows 0 .. n-3 of the input);
    * row 0, holding row 1 of the input;
    * row n-1, holding 0 - (row n-2 of the input).
  Each is the restriction to its rectangle of ONE function of the block index, the zero-padded central
  difference: in the interior both neighbours exist, on row 0 the neighbour below is the padding zero
  (u - 0 = u), on row n-1 the neighbour above is.  No finiteness is used: u - 0 = u holds for every extended real.
-/
import proofs.«143421_j23957327577310_2_alg».proof.Proof.LibCentralDiff

noncomputable section

namespace Cert.FiniteDiff

open Idealize.ShloMosaic

variable {s : Shape}

/-- Where a unit-stride rectangle places its local index: offset plus local coordinate, on every axis. -/
theorem emb_unit_val (off sz : Fin s.rank → Nat) (inb : ∀ b, off b + sz b ≤ s.size b)
    (y : (Rect.unit off sz inb).shape.Idx) (b : Fin s.rank) :
    (((Rect.unit off sz inb).emb y) b).val = off b + (y b).val := by
  show off b + 1 * (y b).val = off b + (y b).val
  rw [Nat.one_mul]

theorem idx_unit_val (off sz : Fin s.rank → Nat) (inb : ∀ b, off b + sz b ≤ s.size b)
    (y : (Rect.unit off sz inb).shape.Idx) (b : Fin s.rank) :
    (((Rect.unit off sz inb).toLoadRect.idx y) b).val = off b + (y b).val := by
  show off b + 1 * (y b).val = off b + (y b).val
  rw [Nat.one_mul]

/-- The interior store: the rows above minus the rows below, placed one row in. -/
theorem piece_interior (a : Fin s.rank) (x : s.Idx → EReal) (sz offO offU offD : Fin s.rank → Nat)
    (inbO : ∀ b, offO b + sz b ≤ s.size b) (inbU : ∀ b, offU b + sz b ≤ s.size b)
    (inbD : ∀ b, offD b + sz b ≤ s.size b)
    (hUa : offU a = offO a + 1) (hUb : ∀ b, b ≠ a → offU b = offO b)
    (hDa : offD a + 1 = offO a) (hDb : ∀ b, b ≠ a → offD b = offO b)
    (y : (Rect.unit offO sz inbO).shape.Idx) :
    x ((Rect.unit offU sz inbU).toLoadRect.idx y) - x ((Rect.unit offD sz inbD).toLoadRect.idx y)
      = centralDiff a x ((Rect.unit offO sz inbO).emb y) := by
  have hy := emb_unit_val offO sz inbO y
  have hlt : (y a).val < sz a := (y a).isLt
  have hU := inbU a
  unfold centralDiff
  rw [above_eq a x _ ((Rect.unit offU sz inbU).toLoadRect.idx y) (by rw [hy]; omega)
        (by rw [idx_unit_val, hy, hUa]; omega) (fun b hb => by rw [idx_unit_val, hy, hUb b hb]),
      below_eq a x _ ((Rect.unit offD sz inbD).toLoadRect.idx y) (by rw [hy]; omega)
        (by rw [idx_unit_val, hy]; omega) (fun b hb => by rw [idx_unit_val, hy, hDb b hb])]

/-- The first row's store: the input's row 1, placed at row 0 (the neighbour below is the padding zero). -/
theorem piece_first (a : Fin s.rank) (x : s.Idx → EReal) (sz offO offU : Fin s.rank → Nat)
    (inbO : ∀ b, offO b + sz b ≤ s.size b) (inbU : ∀ b, offU b + sz b ≤ s.size b)
    (hOa : offO a = 0) (hsz : sz a = 1)
    (hUa : offU a = 1) (hUb : ∀ b, b ≠ a → offU b = offO b)
    (y : (Rect.unit offO sz inbO).shape.Idx) :
    x ((Rect.unit offU sz inbU).toLoadRect.idx y) = centralDiff a x ((Rect.unit offO sz inbO).emb y) := by
  have hy := emb_unit_val offO sz inbO y
  have hlt : (y a).val < sz a := (y a).isLt
  have hU := inbU a
  unfold centralDiff
  rw [above_eq a x _ ((Rect.unit offU sz inbU).toLoadRect.idx y) (by rw [hy]; omega)
        (by rw [idx_unit_val, hy, hUa]; omega) (fun b hb => by rw [idx_unit_val, hy, hUb b hb]),
      below_eq_zero a x _ (by rw [hy]; omega), sub_zero]

/-- The last row's store: zero minus the input's row n-2, placed at row n-1 (the neighbour above is the
    padding zero). -/
theorem piece_last (a : Fin s.rank) (x : s.Idx → EReal) (sz offO offD : Fin s.rank → Nat)
    (inbO : ∀ b, offO b + sz b ≤ s.size b) (inbD : ∀ b, offD b + sz b ≤ s.size b)
    (hOa : offO a + 1 = s.size a) (hsz : sz a = 1)
    (hDa : offD a + 1 = offO a) (hDb : ∀ b, b ≠ a → offD b = offO b)
    (y : (Rect.unit offO sz inbO).shape.Idx) :
    (0 : EReal) - x ((Rect.unit offD sz inbD).toLoadRect.idx y)
      = centralDiff a x ((Rect.unit offO sz inbO).emb y) := by
  have hy := emb_unit_val offO sz inbO y
  have hlt : (y a).val < sz a := (y a).isLt
  unfold centralDiff
  rw [above_eq_zero a x _ (by rw [hy]; omega),
      below_eq a x _ ((Rect.unit offD sz inbD).toLoadRect.idx y) (by rw [hy]; omega)
        (by rw [idx_unit_val, hy]; omega) (fun b hb => by rw [idx_unit_val, hy, hDb b hb])]

end Cert.FiniteDiff

end
-- ==== Proof.DiffAxis2.lean ====
/-
  The first pallas_call: the central difference along axis 2 (of extent 128).

  The pallas_call tiles the array [4,16,128,128,16] into blocks [1,16,128,8,16]: one batch entry and eight consecutive coordinates of axis 3,
  the differenced axis 2 kept WHOLE inside every block. At a grid point the body stores three rectangles
  of its output block - the interior rows, the first row, the last row - and each holds the restriction of the
  zero-padded central difference of the input block along that axis. Because a block spans the whole axis, the
  difference of the block is the block of the array's difference; the blocks tile the array; so the result
  array ends holding the central difference of the argument array along axis 2.
-/
import proofs.«143421_j23957327577310_2_alg».proof.Proof.Gen.KernelIdeal.Frame
import proofs.«143421_j23957327577310_2_alg».proof.Proof.LibCentralDiffPieces
import Idealize.ShloMosaic.Lib.Pipeline.Value
import Idealize.ShloMosaic.PureOps.Ideal.Laws

set_option maxRecDepth 16384

noncomputable section

namespace Cert.KernelIdeal.DiffAxis2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.FiniteDiff

variable (V : (c : Dev nD) → (b : Ref sig .tc) → Buf (Elt Ideal) ((c : Thread nD τ).loc b))

/-! ## One grid point: the output block is the central difference of the input block -/

/-- What the body leaves in its output block, whatever staging buffers it ran on: the zero-padded central
    difference of the input block along axis 2. The three stored rectangles cover the block, and each
    stored value is that one function read through its rectangle. -/
theorem block_eq (c : Dev nD) (i : grid0.Coords) (arg2 : Memref sig .tc .vmem S1x16x128x8x16 .f32) (harg2 : arg2.IsWhole)
    (arg3 : Memref sig .tc .vmem S1x16x128x8x16 .f32) (harg3 : arg3.IsWhole) (x0 : Vec Ideal S1x16x128x8x16 .f32) :
    out0_A_1 (F := Ideal) c i arg2 harg2 arg3 harg3 x0 = centralDiff (s := S1x16x128x8x16) (2 : Fin 5) x0 := by
  unfold out0_A_1
  rw [View.read_writes_eq_canon _ _ _ (cover0_A_1 c i arg2 harg2 arg3 harg3 x0)]
  funext y
  refine View.canon_apply_of_pieces (centralDiff (s := S1x16x128x8x16) (2 : Fin 5) x0) _ ?_ y
    (cover0_A_1 c i arg2 harg2 arg3 harg3 x0 y)
  unfold kernelRun0_A
  dsimp only
  sl_unfold_words
  simp only [View.readAt_eq_ld, harg2.read_unread]
  intro p hp
  simp only [List.mem_cons, List.not_mem_nil, or_false] at hp
  rcases hp with rfl | rfl | rfl
  · intro x
    show Ideal.ofBits .f32 0x00000000#32 - _ = _
    rw [Ideal.ofBits_zero_f32]
    exact piece_last (s := S1x16x128x8x16) (2 : Fin 5) x0 ![1, 16, 1, 8, 16] ![0, 0, 127, 0, 0] ![0, 0, 126, 0, 0]
      inb_S1x16x128x8x16_S1x16x1x8x16_0_0_127_0_0 inb_S1x16x128x8x16_S1x16x1x8x16_0_0_126_0_0 rfl rfl rfl (by decide) x
  · intro x
    exact piece_first (s := S1x16x128x8x16) (2 : Fin 5) x0 ![1, 16, 1, 8, 16] ![0, 0, 0, 0, 0] ![0, 0, 1, 0, 0]
      inb_S1x16x128x8x16_S1x16x1x8x16_0_0_0_0_0 inb_S1x16x128x8x16_S1x16x1x8x16_0_0_1_0_0 rfl rfl rfl (by decide) x
  · intro x
    exact piece_interior (s := S1x16x128x8x16) (2 : Fin 5) x0 ![1, 16, 126, 8, 16] ![0, 0, 1, 0, 0] ![0, 0, 2, 0, 0] ![0, 0, 0, 0, 0]
      inb_S1x16x128x8x16_S1x16x126x8x16_0_0_1_0_0 inb_S1x16x128x8x16_S1x16x126x8x16_0_0_2_0_0 inb_S1x16x128x8x16_S1x16x126x8x16_0_0_0_0_0
      rfl (by decide) rfl (by decide) x

/-! ## The index maps, decided over the grid -/

/-- The input window and the output window sit at the same block at every point; on the differenced axis
    (and on the other whole axes) the block index is zero; the two tiled axes' block indices stay in range. -/
theorem idx_facts : ∀ t : Fin cfg0.N,
    (∀ a : Fin 5, win0_0.index t a = win0_1.index t a) ∧ win0_1.index t (2 : Fin 5) = 0 :=
  (by decide +kernel : ∀ t : Fin grid0.N, _)

/-- Every block of the array is some grid point's. -/
theorem idx_onto : ∀ (q0 : Fin 4) (q1 : Fin 16), ∃ t : Fin cfg0.N, win0_1.index t = ![q0.val, 0, 0, q1.val, 0] :=
  (by decide +kernel : ∀ (q0 : Fin 4) (q1 : Fin 16), ∃ t : Fin grid0.N, win0_1.index t = ![q0.val, 0, 0, q1.val, 0])

/-! ## What a grid point writes back -/

/-- Point t writes back block t of the array's central difference along axis 2. -/
theorem flushed_eq (c : Dev nD) (t : Fin cfg0.N) :
    (dat0 V c).flushed 1 t = ((cfg0.win 1).blk t).view.read (Elt Ideal)
      (centralDiff (s := S4x16x128x128x16) (2 : Fin 5) (V c main_arg0)) := by
  show (cfg0.win 1).cut (grid0.coords t) ((dat0 V c).after 1 t) = _
  rw [after0_1]
  unfold outsAt0
  rw [block_eq]
  obtain ⟨e01, e2⟩ := idx_facts t
  have hin : iblk0 V c 0 t = fun z => V c main_arg0 (((cfg0.win 1).blk t).view.emb z) := by
    funext z
    show V c main_arg0 (((cfg0.win 0).blk t).view.emb z) = V c main_arg0 (((cfg0.win 1).blk t).view.emb z)
    refine congrArg (V c main_arg0) (funext fun a => Fin.ext ?_)
    match a with
    | ⟨0, _⟩ => show win0_0.index t (0 : Fin 5) * 1 + 1 * (z 0).val = win0_1.index t (0 : Fin 5) * 1 + 1 * (z 0).val; rw [e01 0]
    | ⟨1, _⟩ => show win0_0.index t (1 : Fin 5) * 16 + 1 * (z 1).val = win0_1.index t (1 : Fin 5) * 16 + 1 * (z 1).val; rw [e01 1]
    | ⟨2, _⟩ => show win0_0.index t (2 : Fin 5) * 128 + 1 * (z 2).val = win0_1.index t (2 : Fin 5) * 128 + 1 * (z 2).val; rw [e01 2]
    | ⟨3, _⟩ => show win0_0.index t (3 : Fin 5) * 8 + 1 * (z 3).val = win0_1.index t (3 : Fin 5) * 8 + 1 * (z 3).val; rw [e01 3]
    | ⟨4, _⟩ => show win0_0.index t (4 : Fin 5) * 16 + 1 * (z 4).val = win0_1.index t (4 : Fin 5) * 16 + 1 * (z 4).val; rw [e01 4]
  rw [hin]
  funext y
  show centralDiff (s := S1x16x128x8x16) (2 : Fin 5) (fun z => V c main_arg0 (((cfg0.win 1).blk t).view.emb z)) y
    = centralDiff (s := S4x16x128x128x16) (2 : Fin 5) (V c main_arg0) (((cfg0.win 1).blk t).view.emb y)
  exact centralDiff_block (s := S4x16x128x128x16) (t := S1x16x128x8x16) rfl (2 : Fin 5) (V c main_arg0)
    (fun z => ((cfg0.win 1).blk t).view.emb z) (fun b => win0_1.index t b * S1x16x128x8x16.size b)
    (fun z b => match b with
      | ⟨0, _⟩ => by show win0_1.index t (0 : Fin 5) * 1 + 1 * (z 0).val = win0_1.index t (0 : Fin 5) * 1 + (z 0).val; omega
      | ⟨1, _⟩ => by show win0_1.index t (1 : Fin 5) * 16 + 1 * (z 1).val = win0_1.index t (1 : Fin 5) * 16 + (z 1).val; omega
      | ⟨2, _⟩ => by show win0_1.index t (2 : Fin 5) * 128 + 1 * (z 2).val = win0_1.index t (2 : Fin 5) * 128 + (z 2).val; omega
      | ⟨3, _⟩ => by show win0_1.index t (3 : Fin 5) * 8 + 1 * (z 3).val = win0_1.index t (3 : Fin 5) * 8 + (z 3).val; omega
      | ⟨4, _⟩ => by show win0_1.index t (4 : Fin 5) * 16 + 1 * (z 4).val = win0_1.index t (4 : Fin 5) * 16 + (z 4).val; omega)
    (by show win0_1.index t (2 : Fin 5) * 128 = 0; rw [e2])
    rfl y

/-! ## The blocks tile the array -/

/-- An index of the array is in point t's block iff each coordinate is in the block's range on its axis. -/
theorem mem_blk (t : Fin cfg0.N) (i : S4x16x128x128x16.Idx) :
    i ∈ ((cfg0.win 1).blk t).view.set ↔ ∀ a : Fin 5, win0_1.index t a * S1x16x128x8x16.size a ≤ (i a).val
      ∧ (i a).val < win0_1.index t a * S1x16x128x8x16.size a + S1x16x128x8x16.size a := by
  show i ∈ ((View.whole main_v0).slice (win0_1.rect t)).set ↔ _
  rw [View.set_slice_whole, Rect.mem_set_unit]
  exact Iff.rfl

/-- Every index of the array is in the block of the point whose block indices are its batch coordinate and
    its tiled coordinate divided by the tile length. -/
theorem cover (i : S4x16x128x128x16.Idx) :
    ∃ t : Fin cfg0.N, (cfg0.win 1).flush t = true ∧ i ∈ ((cfg0.win 1).blk t).view.set := by
  have hi0 : (i 0).val < 4 := (i 0).isLt
  have hi1 : (i 1).val < 16 := (i 1).isLt
  have hi2 : (i 2).val < 128 := (i 2).isLt
  have hi3 : (i 3).val < 128 := (i 3).isLt
  have hi4 : (i 4).val < 16 := (i 4).isLt
  obtain ⟨t, ht⟩ := idx_onto ⟨(i 0).val, hi0⟩ ⟨(i 3).val / 8, by omega⟩
  have q0 : win0_1.index t (0 : Fin 5) = (i 0).val := congrFun ht 0
  have q1 : win0_1.index t (1 : Fin 5) = 0 := congrFun ht 1
  have q2 : win0_1.index t (2 : Fin 5) = 0 := congrFun ht 2
  have q3 : win0_1.index t (3 : Fin 5) = (i 3).val / 8 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 16 ≤ (i 1).val ∧ (i 1).val < win0_1.index t (1 : Fin 5) * 16 + 16; omega
  | ⟨2, _⟩ => show win0_1.index t (2 : Fin 5) * 128 ≤ (i 2).val ∧ (i 2).val < win0_1.index t (2 : Fin 5) * 128 + 128; omega
  | ⟨3, _⟩ => show win0_1.index t (3 : Fin 5) * 8 ≤ (i 3).val ∧ (i 3).val < win0_1.index t (3 : Fin 5) * 8 + 8; omega
  | ⟨4, _⟩ => show win0_1.index t (4 : Fin 5) * 16 ≤ (i 4).val ∧ (i 4).val < win0_1.index t (4 : Fin 5) * 16 + 16; omega

/-! ## The result array after the region -/

/-- The pipeline leaves the result array at the central difference, along axis 2, of the argument array as
    the region found it. -/
theorem final (c : Dev nD) :
    (dat0 V c).arrAt 1 cfg0.N = centralDiff (s := S4x16x128x128x16) (2 : Fin 5) (V c main_arg0) :=
  (dat0 V c).arrAt_eq_of_cover 1 _ (fun t _ => flushed_eq V c t) cover

end Cert.KernelIdeal.DiffAxis2

end
-- ==== Proof.DiffAxis3.lean ====
/-
  The second pallas_call: the central difference along axis 3 (of extent 128).

  The pallas_call tiles the array [4,16,128,128,16] into blocks [1,16,4,128,16]: one batch entry and four consecutive coordinates of axis 2,
  the differenced axis 3 kept WHOLE inside every block. At a grid point the body stores three rectangles
  of its output block - the interior rows, the first row, the last row - and each holds the restriction of the
  zero-padded central difference of the input block along that axis. Because a block spans the whole axis, the
  difference of the block is the block of the array's difference; the blocks tile the array; so the result
  array ends holding the central difference of the argument array along axis 3.
-/
import proofs.«143421_j23957327577310_2_alg».proof.Proof.Gen.KernelIdeal.Frame
import proofs.«143421_j23957327577310_2_alg».proof.Proof.LibCentralDiffPieces
import Idealize.ShloMosaic.Lib.Pipeline.Value
import Idealize.ShloMosaic.PureOps.Ideal.Laws

set_option maxRecDepth 16384

noncomputable section

namespace Cert.KernelIdeal.DiffAxis3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.FiniteDiff

variable (V : (c : Dev nD) → (b : Ref sig .tc) → Buf (Elt Ideal) ((c : Thread nD τ).loc b))

/-! ## One grid point: the output block is the central difference of the input block -/

/-- What the body leaves in its output block, whatever staging buffers it ran on: the zero-padded central
    difference of the input block along axis 3. The three stored rectangles cover the block, and each
    stored value is that one function read through its rectangle. -/
theorem block_eq (c : Dev nD) (i : grid1.Coords) (arg2 : Memref sig .tc .vmem S1x16x4x128x16 .f32) (harg2 : arg2.IsWhole)
    (arg3 : Memref sig .tc .vmem S1x16x4x128x16 .f32) (harg3 : arg3.IsWhole) (x0 : Vec Ideal S1x16x4x128x16 .f32) :
    out1_A_1 (F := Ideal) c i arg2 harg2 arg3 harg3 x0 = centralDiff (s := S1x16x4x128x16) (3 : Fin 5) x0 := by
  unfold out1_A_1
  rw [View.read_writes_eq_canon _ _ _ (cover1_A_1 c i arg2 harg2 arg3 harg3 x0)]
  funext y
  refine View.canon_apply_of_pieces (centralDiff (s := S1x16x4x128x16) (3 : Fin 5) x0) _ ?_ y
    (cover1_A_1 c i arg2 harg2 arg3 harg3 x0 y)
  unfold kernelRun1_A
  dsimp only
  sl_unfold_words
  simp only [View.readAt_eq_ld, harg2.read_unread]
  intro p hp
  simp only [List.mem_cons, List.not_mem_nil, or_false] at hp
  rcases hp with rfl | rfl | rfl
  · intro x
    show Ideal.ofBits .f32 0x00000000#32 - _ = _
    rw [Ideal.ofBits_zero_f32]
    exact piece_last (s := S1x16x4x128x16) (3 : Fin 5) x0 ![1, 16, 4, 1, 16] ![0, 0, 0, 127, 0] ![0, 0, 0, 126, 0]
      inb_S1x16x4x128x16_S1x16x4x1x16_0_0_0_127_0 inb_S1x16x4x128x16_S1x16x4x1x16_0_0_0_126_0 rfl rfl rfl (by decide) x
  · intro x
    exact piece_first (s := S1x16x4x128x16) (3 : Fin 5) x0 ![1, 16, 4, 1, 16] ![0, 0, 0, 0, 0] ![0, 0, 0, 1, 0]
      inb_S1x16x4x128x16_S1x16x4x1x16_0_0_0_0_0 inb_S1x16x4x128x16_S1x16x4x1x16_0_0_0_1_0 rfl rfl rfl (by decide) x
  · intro x
    exact piece_interior (s := S1x16x4x128x16) (3 : Fin 5) x0 ![1, 16, 4, 126, 16] ![0, 0, 0, 1, 0] ![0, 0, 0, 2, 0] ![0, 0, 0, 0, 0]
      inb_S1x16x4x128x16_S1x16x4x126x16_0_0_0_1_0 inb_S1x16x4x128x16_S1x16x4x126x16_0_0_0_2_0 inb_S1x16x4x128x16_S1x16x4x126x16_0_0_0_0_0
      rfl (by decide) rfl (by decide) x

/-! ## The index maps, decided over the grid -/

/-- The input window and the output window sit at the same block at every point; on the differenced axis
    (and on the other whole axes) the block index is zero; the two tiled axes' block indices stay in range. -/
theorem idx_facts : ∀ t : Fin cfg1.N,
    (∀ a : Fin 5, win1_0.index t a = win1_1.index t a) ∧ win1_1.index t (3 : Fin 5) = 0 :=
  (by decide +kernel : ∀ t : Fin grid1.N, _)

/-- Every block of the array is some grid point's. -/
theorem idx_onto : ∀ (q0 : Fin 4) (q1 : Fin 32), ∃ t : Fin cfg1.N, win1_1.index t = ![q0.val, 0, q1.val, 0, 0] :=
  (by decide +kernel : ∀ (q0 : Fin 4) (q1 : Fin 32), ∃ t : Fin grid1.N, win1_1.index t = ![q0.val, 0, q1.val, 0, 0])

/-! ## What a grid point writes back -/

/-- Point t writes back block t of the array's central difference along axis 3. -/
theorem flushed_eq (c : Dev nD) (t : Fin cfg1.N) :
    (dat1 V c).flushed 1 t = ((cfg1.win 1).blk t).view.read (Elt Ideal)
      (centralDiff (s := S4x16x128x128x16) (3 : Fin 5) (V c main_arg0)) := by
  show (cfg1.win 1).cut (grid1.coords t) ((dat1 V c).after 1 t) = _
  rw [after1_1]
  unfold outsAt1
  rw [block_eq]
  obtain ⟨e01, e2⟩ := idx_facts t
  have hin : iblk1 V c 0 t = fun z => V c main_arg0 (((cfg1.win 1).blk t).view.emb z) := by
    funext z
    show V c main_arg0 (((cfg1.win 0).blk t).view.emb z) = V c main_arg0 (((cfg1.win 1).blk t).view.emb z)
    refine congrArg (V c main_arg0) (funext fun a => Fin.ext ?_)
    match a with
    | ⟨0, _⟩ => show win1_0.index t (0 : Fin 5) * 1 + 1 * (z 0).val = win1_1.index t (0 : Fin 5) * 1 + 1 * (z 0).val; rw [e01 0]
    | ⟨1, _⟩ => show win1_0.index t (1 : Fin 5) * 16 + 1 * (z 1).val = win1_1.index t (1 : Fin 5) * 16 + 1 * (z 1).val; rw [e01 1]
    | ⟨2, _⟩ => show win1_0.index t (2 : Fin 5) * 4 + 1 * (z 2).val = win1_1.index t (2 : Fin 5) * 4 + 1 * (z 2).val; rw [e01 2]
    | ⟨3, _⟩ => show win1_0.index t (3 : Fin 5) * 128 + 1 * (z 3).val = win1_1.index t (3 : Fin 5) * 128 + 1 * (z 3).val; rw [e01 3]
    | ⟨4, _⟩ => show win1_0.index t (4 : Fin 5) * 16 + 1 * (z 4).val = win1_1.index t (4 : Fin 5) * 16 + 1 * (z 4).val; rw [e01 4]
  rw [hin]
  funext y
  show centralDiff (s := S1x16x4x128x16) (3 : Fin 5) (fun z => V c main_arg0 (((cfg1.win 1).blk t).view.emb z)) y
    = centralDiff (s := S4x16x128x128x16) (3 : Fin 5) (V c main_arg0) (((cfg1.win 1).blk t).view.emb y)
  exact centralDiff_block (s := S4x16x128x128x16) (t := S1x16x4x128x16) rfl (3 : Fin 5) (V c main_arg0)
    (fun z => ((cfg1.win 1).blk t).view.emb z) (fun b => win1_1.index t b * S1x16x4x128x16.size b)
    (fun z b => match b with
      | ⟨0, _⟩ => by show win1_1.index t (0 : Fin 5) * 1 + 1 * (z 0).val = win1_1.index t (0 : Fin 5) * 1 + (z 0).val; omega
      | ⟨1, _⟩ => by show win1_1.index t (1 : Fin 5) * 16 + 1 * (z 1).val = win1_1.index t (1 : Fin 5) * 16 + (z 1).val; omega
      | ⟨2, _⟩ => by show win1_1.index t (2 : Fin 5) * 4 + 1 * (z 2).val = win1_1.index t (2 : Fin 5) * 4 + (z 2).val; omega
      | ⟨3, _⟩ => by show win1_1.index t (3 : Fin 5) * 128 + 1 * (z 3).val = win1_1.index t (3 : Fin 5) * 128 + (z 3).val; omega
      | ⟨4, _⟩ => by show win1_1.index t (4 : Fin 5) * 16 + 1 * (z 4).val = win1_1.index t (4 : Fin 5) * 16 + (z 4).val; omega)
    (by show win1_1.index t (3 : Fin 5) * 128 = 0; rw [e2])
    rfl y

/-! ## The blocks tile the array -/

/-- An index of the array is in point t's block iff each coordinate is in the block's range on its axis. -/
theorem mem_blk (t : Fin cfg1.N) (i : S4x16x128x128x16.Idx) :
    i ∈ ((cfg1.win 1).blk t).view.set ↔ ∀ a : Fin 5, win1_1.index t a * S1x16x4x128x16.size a ≤ (i a).val
      ∧ (i a).val < win1_1.index t a * S1x16x4x128x16.size a + S1x16x4x128x16.size a := by
  show i ∈ ((View.whole main_v1).slice (win1_1.rect t)).set ↔ _
  rw [View.set_slice_whole, Rect.mem_set_unit]
  exact Iff.rfl

/-- Every index of the array is in the block of the point whose block indices are its batch coordinate and
    its tiled coordinate divided by the tile length. -/
theorem cover (i : S4x16x128x128x16.Idx) :
    ∃ t : Fin cfg1.N, (cfg1.win 1).flush t = true ∧ i ∈ ((cfg1.win 1).blk t).view.set := by
  have hi0 : (i 0).val < 4 := (i 0).isLt
  have hi1 : (i 1).val < 16 := (i 1).isLt
  have hi2 : (i 2).val < 128 := (i 2).isLt
  have hi3 : (i 3).val < 128 := (i 3).isLt
  have hi4 : (i 4).val < 16 := (i 4).isLt
  obtain ⟨t, ht⟩ := idx_onto ⟨(i 0).val, hi0⟩ ⟨(i 2).val / 4, by omega⟩
  have q0 : win1_1.index t (0 : Fin 5) = (i 0).val := congrFun ht 0
  have q1 : win1_1.index t (1 : Fin 5) = 0 := congrFun ht 1
  have q2 : win1_1.index t (2 : Fin 5) = (i 2).val / 4 := congrFun ht 2
  have q3 : win1_1.index t (3 : Fin 5) = 0 := congrFun ht 3
  have q4 : win1_1.index t (4 : Fin 5) = 0 := congrFun ht 4
  refine ⟨t, flush1_1 t, ?_⟩
  rw [mem_blk]
  intro a
  match a with
  | ⟨0, _⟩ => show win1_1.index t (0 : Fin 5) * 1 ≤ (i 0).val ∧ (i 0).val < win1_1.index t (0 : Fin 5) * 1 + 1; omega
  | ⟨1, _⟩ => show win1_1.index t (1 : Fin 5) * 16 ≤ (i 1).val ∧ (i 1).val < win1_1.index t (1 : Fin 5) * 16 + 16; omega
  | ⟨2, _⟩ => show win1_1.index t (2 : Fin 5) * 4 ≤ (i 2).val ∧ (i 2).val < win1_1.index t (2 : Fin 5) * 4 + 4; omega
  | ⟨3, _⟩ => show win1_1.index t (3 : Fin 5) * 128 ≤ (i 3).val ∧ (i 3).val < win1_1.index t (3 : Fin 5) * 128 + 128; omega
  | ⟨4, _⟩ => show win1_1.index t (4 : Fin 5) * 16 ≤ (i 4).val ∧ (i 4).val < win1_1.index t (4 : Fin 5) * 16 + 16; omega

/-! ## The result array after the region -/

/-- The pipeline leaves the result array at the central difference, along axis 3, of the argument array as
    the region found it. -/
theorem final (c : Dev nD) :
    (dat1 V c).arrAt 1 cfg1.N = centralDiff (s := S4x16x128x128x16) (3 : Fin 5) (V c main_arg0) :=
  (dat1 V c).arrAt_eq_of_cover 1 _ (fun t _ => flushed_eq V c t) cover

end Cert.KernelIdeal.DiffAxis3

end
-- ==== Proof.DiffAxis1.lean ====
/-
  The third pallas_call: the central difference along axis 1 (of extent 16).

  The pallas_call tiles the array [4,16,128,128,16] into blocks [1,16,4,128,16]: one batch entry and four consecutive coordinates of axis 2,
  the differenced axis 1 kept WHOLE inside every block. At a grid point the body stores three rectangles
  of its output block - the interior rows, the first row, the last row - and each holds the restriction of the
  zero-padded central difference of the input block along that axis. Because a block spans the whole axis, the
  difference of the block is the block of the array's difference; the blocks tile the array; so the result
  array ends holding the central difference of the argument array along axis 1.
-/
import proofs.«143421_j23957327577310_2_alg».proof.Proof.Gen.KernelIdeal.Frame
import proofs.«143421_j23957327577310_2_alg».proof.Proof.LibCentralDiffPieces
import Idealize.ShloMosaic.Lib.Pipeline.Value
import Idealize.ShloMosaic.PureOps.Ideal.Laws

set_option maxRecDepth 16384

noncomputable section

namespace Cert.KernelIdeal.DiffAxis1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.FiniteDiff

variable (V : (c : Dev nD) → (b : Ref sig .tc) → Buf (Elt Ideal) ((c : Thread nD τ).loc b))

/-! ## One grid point: the output block is the central difference of the input block -/

/-- What the body leaves in its output block, whatever staging buffers it ran on: the zero-padded central
    difference of the input block along axis 1. The three stored rectangles cover the block, and each
    stored value is that one function read through its rectangle. -/
theorem block_eq (c : Dev nD) (i : grid2.Coords) (arg2 : Memref sig .tc .vmem S1x16x4x128x16 .f32) (harg2 : arg2.IsWhole)
    (arg3 : Memref sig .tc .vmem S1x16x4x128x16 .f32) (harg3 : arg3.IsWhole) (x0 : Vec Ideal S1x16x4x128x16 .f32) :
    out2_A_1 (F := Ideal) c i arg2 harg2 arg3 harg3 x0 = centralDiff (s := S1x16x4x128x16) (1 : Fin 5) x0 := by
  unfold out2_A_1
  rw [View.read_writes_eq_canon _ _ _ (cover2_A_1 c i arg2 harg2 arg3 harg3 x0)]
  funext y
  refine View.canon_apply_of_pieces (centralDiff (s := S1x16x4x128x16) (1 : Fin 5) x0) _ ?_ y
    (cover2_A_1 c i arg2 harg2 arg3 harg3 x0 y)
  unfold kernelRun2_A
  dsimp only
  sl_unfold_words
  simp only [View.readAt_eq_ld, harg2.read_unread]
  intro p hp
  simp only [List.mem_cons, List.not_mem_nil, or_false] at hp
  rcases hp with rfl | rfl | rfl
  · intro x
    show Ideal.ofBits .f32 0x00000000#32 - _ = _
    rw [Ideal.ofBits_zero_f32]
    exact piece_last (s := S1x16x4x128x16) (1 : Fin 5) x0 ![1, 1, 4, 128, 16] ![0, 15, 0, 0, 0] ![0, 14, 0, 0, 0]
      inb_S1x16x4x128x16_S1x1x4x128x16_0_15_0_0_0 inb_S1x16x4x128x16_S1x1x4x128x16_0_14_0_0_0 rfl rfl rfl (by decide) x
  · intro x
    exact piece_first (s := S1x16x4x128x16) (1 : Fin 5) x0 ![1, 1, 4, 128, 16] ![0, 0, 0, 0, 0] ![0, 1, 0, 0, 0]
      inb_S1x16x4x128x16_S1x1x4x128x16_0_0_0_0_0 inb_S1x16x4x128x16_S1x1x4x128x16_0_1_0_0_0 rfl rfl rfl (by decide) x
  · intro x
    exact piece_interior (s := S1x16x4x128x16) (1 : Fin 5) x0 ![1, 14, 4, 128, 16] ![0, 1, 0, 0, 0] ![0, 2, 0, 0, 0] ![0, 0, 0, 0, 0]
      inb_S1x16x4x128x16_S1x14x4x128x16_0_1_0_0_0 inb_S1x16x4x128x16_S1x14x4x128x16_0_2_0_0_0 inb_S1x16x4x128x16_S1x14x4x128x16_0_0_0_0_0
      rfl (by decide) rfl (by decide) x

/-! ## The index maps, decided over the grid -/

/-- The input window and the output window sit at the same block at every point; on the differenced axis
    (and on the other whole axes) the block index is zero; the two tiled axes' block indices stay in range. -/
theorem idx_facts : ∀ t : Fin cfg2.N,
    (∀ a : Fin 5, win2_0.index t a = win2_1.index t a) ∧ win2_1.index t (1 : Fin 5) = 0 :=
  (by decide +kernel : ∀ t : Fin grid2.N, _)

/-- Every block of the array is some grid point's. -/
theorem idx_onto : ∀ (q0 : Fin 4) (q1 : Fin 32), ∃ t : Fin cfg2.N, win2_1.index t = ![q0.val, 0, q1.val, 0, 0] :=
  (by decide +kernel : ∀ (q0 : Fin 4) (q1 : Fin 32), ∃ t : Fin grid2.N, win2_1.index t = ![q0.val, 0, q1.val, 0, 0])

/-! ## What a grid point writes back -/

/-- Point t writes back block t of the array's central difference along axis 1. -/
theorem flushed_eq (c : Dev nD) (t : Fin cfg2.N) :
    (dat2 V c).flushed 1 t = ((cfg2.win 1).blk t).view.read (Elt Ideal)
      (centralDiff (s := S4x16x128x128x16) (1 : Fin 5) (V c main_arg0)) := by
  show (cfg2.win 1).cut (grid2.coords t) ((dat2 V c).after 1 t) = _
  rw [after2_1]
  unfold outsAt2
  rw [block_eq]
  obtain ⟨e01, e2⟩ := idx_facts t
  have hin : iblk2 V c 0 t = fun z => V c main_arg0 (((cfg2.win 1).blk t).view.emb z) := by
    funext z
    show V c main_arg0 (((cfg2.win 0).blk t).view.emb z) = V c main_arg0 (((cfg2.win 1).blk t).view.emb z)
    refine congrArg (V c main_arg0) (funext fun a => Fin.ext ?_)
    match a with
    | ⟨0, _⟩ => show win2_0.index t (0 : Fin 5) * 1 + 1 * (z 0).val = win2_1.index t (0 : Fin 5) * 1 + 1 * (z 0).val; rw [e01 0]
    | ⟨1, _⟩ => show win2_0.index t (1 : Fin 5) * 16 + 1 * (z 1).val = win2_1.index t (1 : Fin 5) * 16 + 1 * (z 1).val; rw [e01 1]
    | ⟨2, _⟩ => show win2_0.index t (2 : Fin 5) * 4 + 1 * (z 2).val = win2_1.index t (2 : Fin 5) * 4 + 1 * (z 2).val; rw [e01 2]
    | ⟨3, _⟩ => show win2_0.index t (3 : Fin 5) * 128 + 1 * (z 3).val = win2_1.index t (3 : Fin 5) * 128 + 1 * (z 3).val; rw [e01 3]
    | ⟨4, _⟩ => show win2_0.index t (4 : Fin 5) * 16 + 1 * (z 4).val = win2_1.index t (4 : Fin 5) * 16 + 1 * (z 4).val; rw [e01 4]
  rw [hin]
  funext y
  show centralDiff (s := S1x16x4x128x16) (1 : Fin 5) (fun z => V c main_arg0 (((cfg2.win 1).blk t).view.emb z)) y
    = centralDiff (s := S4x16x128x128x16) (1 : Fin 5) (V c main_arg0) (((cfg2.win 1).blk t).view.emb y)
  exact centralDiff_block (s := S4x16x128x128x16) (t := S1x16x4x128x16) rfl (1 : Fin 5) (V c main_arg0)
    (fun z => ((cfg2.win 1).blk t).view.emb z) (fun b => win2_1.index t b * S1x16x4x128x16.size b)
    (fun z b => match b with
      | ⟨0, _⟩ => by show win2_1.index t (0 : Fin 5) * 1 + 1 * (z 0).val = win2_1.index t (0 : Fin 5) * 1 + (z 0).val; omega
      | ⟨1, _⟩ => by show win2_1.index t (1 : Fin 5) * 16 + 1 * (z 1).val = win2_1.index t (1 : Fin 5) * 16 + (z 1).val; omega
      | ⟨2, _⟩ => by show win2_1.index t (2 : Fin 5) * 4 + 1 * (z 2).val = win2_1.index t (2 : Fin 5) * 4 + (z 2).val; omega
      | ⟨3, _⟩ => by show win2_1.index t (3 : Fin 5) * 128 + 1 * (z 3).val = win2_1.index t (3 : Fin 5) * 128 + (z 3).val; omega
      | ⟨4, _⟩ => by show win2_1.index t (4 : Fin 5) * 16 + 1 * (z 4).val = win2_1.index t (4 : Fin 5) * 16 + (z 4).val; omega)
    (by show win2_1.index t (1 : Fin 5) * 16 = 0; rw [e2])
    rfl y

/-! ## The blocks tile the array -/

/-- An index of the array is in point t's block iff each coordinate is in the block's range on its axis. -/
theorem mem_blk (t : Fin cfg2.N) (i : S4x16x128x128x16.Idx) :
    i ∈ ((cfg2.win 1).blk t).view.set ↔ ∀ a : Fin 5, win2_1.index t a * S1x16x4x128x16.size a ≤ (i a).val
      ∧ (i a).val < win2_1.index t a * S1x16x4x128x16.size a + S1x16x4x128x16.size a := by
  show i ∈ ((View.whole main_v2).slice (win2_1.rect t)).set ↔ _
  rw [View.set_slice_whole, Rect.mem_set_unit]
  exact Iff.rfl

/-- Every index of the array is in the block of the point whose block indices are its batch coordinate and
    its tiled coordinate divided by the tile length. -/
theorem cover (i : S4x16x128x128x16.Idx) :
    ∃ t : Fin cfg2.N, (cfg2.win 1).flush t = true ∧ i ∈ ((cfg2.win 1).blk t).view.set := by
  have hi0 : (i 0).val < 4 := (i 0).isLt
  have hi1 : (i 1).val < 16 := (i 1).isLt
  have hi2 : (i 2).val < 128 := (i 2).isLt
  have hi3 : (i 3).val < 128 := (i 3).isLt
  have hi4 : (i 4).val < 16 := (i 4).isLt
  obtain ⟨t, ht⟩ := idx_onto ⟨(i 0).val, hi0⟩ ⟨(i 2).val / 4, by omega⟩
  have q0 : win2_1.index t (0 : Fin 5) = (i 0).val := congrFun ht 0
  have q1 : win2_1.index t (1 : Fin 5) = 0 := congrFun ht 1
  have q2 : win2_1.index t (2 : Fin 5) = (i 2).val / 4 := congrFun ht 2
  have q3 : win2_1.index t (3 : Fin 5) = 0 := congrFun ht 3
  have q4 : win2_1.index t (4 : Fin 5) = 0 := congrFun ht 4
  refine ⟨t, flush2_1 t, ?_⟩
  rw [mem_blk]
  intro a
  match a with
  | ⟨0, _⟩ => show win2_1.index t (0 : Fin 5) * 1 ≤ (i 0).val ∧ (i 0).val < win2_1.index t (0 : Fin 5) * 1 + 1; omega
  | ⟨1, _⟩ => show win2_1.index t (1 : Fin 5) * 16 ≤ (i 1).val ∧ (i 1).val < win2_1.index t (1 : Fin 5) * 16 + 16; omega
  | ⟨2, _⟩ => show win2_1.index t (2 : Fin 5) * 4 ≤ (i 2).val ∧ (i 2).val < win2_1.index t (2 : Fin 5) * 4 + 4; omega
  | ⟨3, _⟩ => show win2_1.index t (3 : Fin 5) * 128 ≤ (i 3).val ∧ (i 3).val < win2_1.index t (3 : Fin 5) * 128 + 128; omega
  | ⟨4, _⟩ => show win2_1.index t (4 : Fin 5) * 16 ≤ (i 4).val ∧ (i 4).val < win2_1.index t (4 : Fin 5) * 16 + 16; omega

/-! ## The result array after the region -/

/-- The pipeline leaves the result array at the central difference, along axis 1, of the argument array as
    the region found it. -/
theorem final (c : Dev nD) :
    (dat2 V c).arrAt 1 cfg2.N = centralDiff (s := S4x16x128x128x16) (1 : Fin 5) (V c main_arg0) :=
  (dat2 V c).arrAt_eq_of_cover 1 _ (fun t _ => flushed_eq V c t) cover

end Cert.KernelIdeal.DiffAxis1

end
-- ==== Proof.LibPadNeighbours.lean ====
/-
  The host's zero padding read as the neighbours of a central difference.

  Padding an array by one entry of a value v before and one after along axis a (nothing between the entries,
  nothing on the other axes) and then reading the padded array at the same coordinates as i gives the
  neighbour BELOW i along a (v at coordinate zero); reading it two further along a gives the neighbour ABOVE
  (v at the last coordinate). With v = 0 these are the two zero-padded neighbours of the central difference.
-/
import proofs.«143421_j23957327577310_2_alg».proof.Proof.LibCentralDiff
import Idealize.ShloMosaic.Lib.KernelVsHost

noncomputable section

namespace Cert.FiniteDiff

open Idealize.ShloMosaic

variable {s t : Shape}

/-- The padded array at i's own coordinates is the neighbour below i. -/
theorem pad_read_below (a : Fin s.rank) (lo hi interior : Fin s.rank → Nat) (x : s.Idx → EReal)
    {u : Shape} (v : u.Idx → EReal) (h : s.Pads lo hi interior t) (hu : 0 < u.numel)
    (hint : ∀ b, interior b = 0) (hloa : lo a = 1) (hlob : ∀ b, b ≠ a → lo b = 0)
    (hv : v (Shape.Idx.first hu) = 0)
    (i : s.Idx) (j : t.Idx) (hj : ∀ b, (j (b.cast h.1)).val = (i b).val) :
    pad t lo hi interior x v h hu j = below a x i := by
  by_cases h0 : 0 < (i a).val
  · have hk : (i a).val - 1 < s.size a := by have := (i a).isLt; omega
    rw [pad_apply_of_inside lo hi interior x v h hu j (setAxis i a ((i a).val - 1) hk) (fun b => by
      by_cases hb : b = a
      · rw [hb, hj, hloa, hint, setAxis_same]; omega
      · rw [hj, hlob b hb, hint, setAxis_ne _ _ _ _ hb]; omega)]
    unfold below; rw [dif_pos h0]
  · rw [pad_apply_of_not_inside lo hi interior x v h hu j a (fun hc => h0 (by
      have h1 := hc.1; rw [hj, hloa] at h1; omega)), hv, below_eq_zero a x i h0]

/-- The padded array two steps further along a is the neighbour above i. -/
theorem pad_read_above (a : Fin s.rank) (lo hi interior : Fin s.rank → Nat) (x : s.Idx → EReal)
    {u : Shape} (v : u.Idx → EReal) (h : s.Pads lo hi interior t) (hu : 0 < u.numel)
    (hint : ∀ b, interior b = 0) (hloa : lo a = 1) (hlob : ∀ b, b ≠ a → lo b = 0)
    (hv : v (Shape.Idx.first hu) = 0)
    (i : s.Idx) (j : t.Idx) (hja : (j (a.cast h.1)).val = (i a).val + 2)
    (hjb : ∀ b, b ≠ a → (j (b.cast h.1)).val = (i b).val) :
    pad t lo hi interior x v h hu j = above a x i := by
  by_cases h0 : (i a).val + 1 < s.size a
  · rw [pad_apply_of_inside lo hi interior x v h hu j (setAxis i a ((i a).val + 1) h0) (fun b => by
      by_cases hb : b = a
      · rw [hb, hja, hloa, hint, setAxis_same]; omega
      · rw [hjb b hb, hlob b hb, hint, setAxis_ne _ _ _ _ hb]; omega)]
    unfold above; rw [dif_pos h0]
  · rw [pad_apply_of_not_inside lo hi interior x v h hu j a (fun hc => h0 (by
      have h1 := hc.2.2; rw [hja, hloa, hint] at h1; omega)), hv, above_eq_zero a x i h0]

end Cert.FiniteDiff

end
-- ==== Proof.LibTwoTap.lean ====
/-
  The three float literals of the two programs as extended reals: the word of 0.0 is 0, the word of 1.0 is 1,
  the word of -1.0 is -1; and the reference's weighted sum of the two neighbours, (-1) * d + 1 * u, is u - d on
  every pair of extended reals (no finiteness: only -1 * d = -d, 1 * u = u and commutativity of + are used).
-/
import Idealize.ShloMosaic.PureOps.Ideal
import Idealize.ShloMosaic.PureOps.Ideal.Laws

noncomputable section

namespace Cert.FiniteDiff

open Idealize.ShloMosaic

theorem ofBits_one : Ideal.ofBits .f32 0x3F800000#32 = (1 : EReal) := by
  simp [Ideal.ofBits, Ideal.ieee]
  rw [← EReal.coe_mul]
  norm_num

theorem ofBits_neg_one : Ideal.ofBits .f32 0xBF800000#32 = (-1 : EReal) := by
  simp [Ideal.ofBits, Ideal.ieee]
  rw [← EReal.coe_mul]
  norm_num

/-- The reference's two-tap sum with taps -1 and 1 is the difference of the neighbours. -/
theorem taps_eq_sub (u d : EReal) : (-1 : EReal) * d + 1 * u = u - d := by
  rw [neg_one_mul, one_mul, add_comm, sub_eq_add_neg]

end Cert.FiniteDiff

end
-- ==== Proof.RefDiff.lean ====
/-
  The reference computes the zero-padded central difference along each of the axes 2, 3 and 1.

  For an axis a the reference pads the array by one zero before and one after along a, takes the two slices
  of the original extent that start at 0 and at 2 along a, and returns (-1) * first + 1 * second. Read at an
  index i, the first slice is the padded array at i's own coordinates - the neighbour below i, zero at
  coordinate 0 - and the second is the padded array two further along a - the neighbour above i, zero at the
  last coordinate. So the result at i is (-1) * below + 1 * above = above - below, on every extended real.
-/
import proofs.«143421_j23957327577310_2_alg».proof.Proof.Gen.ReferenceIdeal.Read
import proofs.«143421_j23957327577310_2_alg».proof.Proof.LibPadNeighbours
import proofs.«143421_j23957327577310_2_alg».proof.Proof.LibTwoTap

noncomputable section

namespace Cert.ReferenceIdeal.RefDiff

open Cert.ReferenceIdeal Cert.ReferenceIdeal.Gen Cert.ReferenceIdeal.Read Cert.FiniteDiff
open Idealize.ShloMosaic Idealize.ShloMosaic.TcCoe Idealize.SL.Sem Idealize.ShloMosaic.StableHlo

/-! ## Axis 2 -/

/-- The padding value of this axis's pad, the converted integer zero, is the extended real zero. -/
theorem pad_value_zero_2 (j : S_.Idx) : val_main_call0_v0 (F := Ideal) j = 0 := by
  show ((((0#32 : BitVec 32).toInt : ℤ) : ℝ) : EReal) = 0
  simp

/-- The reference's result for axis 2: -1 times the padded array at the index's own coordinates plus 1 times
    the padded array two further along the axis, that is, the neighbour above minus the neighbour below. -/
theorem ref_axis2 (x : (⟨S4x16x128x128x16, .f32⟩ : BufTy).Contents (Elt Ideal)) :
    val_main_v7 (F := Ideal) x = centralDiff (s := S4x16x128x128x16) (2 : Fin 5) x := by
  funext i
  rw [val_main_v7_apply, val_main_v3_apply, val_main_v6_apply, val_main_v2_apply, val_main_v5_apply,
    val_main_v1_apply, val_main_v4_apply, val_main_cst_apply, val_main_cst_0_apply]
  unfold val_main_v0
  rw [pad_read_below (s := S4x16x128x128x16) (t := S4x16x130x128x16) (2 : Fin 5) ![0, 0, 1, 0, 0] ![0, 0, 1, 0, 0] ![0, 0, 0, 0, 0] x
        (val_main_call0_v0 (F := Ideal)) _ _ (by decide) rfl (by decide) (pad_value_zero_2 _) i (idx_main_v1 i)
        (fun b => match b with
          | ⟨0, _⟩ => rfl | ⟨1, _⟩ => rfl | ⟨2, _⟩ => rfl | ⟨3, _⟩ => rfl | ⟨4, _⟩ => rfl),
      pad_read_above (s := S4x16x128x128x16) (t := S4x16x130x128x16) (2 : Fin 5) ![0, 0, 1, 0, 0] ![0, 0, 1, 0, 0] ![0, 0, 0, 0, 0] x
        (val_main_call0_v0 (F := Ideal)) _ _ (by decide) rfl (by decide) (pad_value_zero_2 _) i (idx_main_v4 i)
        (by show 2 + (i 2).val = (i 2).val + 2; omega)
        (fun b => match b with
          | ⟨0, _⟩ => fun _ => rfl
          | ⟨1, _⟩ => fun _ => rfl
          | ⟨2, _⟩ => fun hb => absurd rfl hb
          | ⟨3, _⟩ => fun _ => rfl
          | ⟨4, _⟩ => fun _ => rfl)]
  simp only [Ideal.addf_def, Ideal.mulf_def, Ideal.ofBits_def, ofBits_neg_one, ofBits_one]
  exact taps_eq_sub _ _

/-! ## Axis 3 -/

/-- The padding value of this axis's pad, the converted integer zero, is the extended real zero. -/
theorem pad_value_zero_3 (j : S_.Idx) : val_main_call1_v0 (F := Ideal) j = 0 := by
  show ((((0#32 : BitVec 32).toInt : ℤ) : ℝ) : EReal) = 0
  simp

/-- The reference's result for axis 3: -1 times the padded array at the index's own coordinates plus 1 times
    the padded array two further along the axis, that is, the neighbour above minus the neighbour below. -/
theorem ref_axis3 (x : (⟨S4x16x128x128x16, .f32⟩ : BufTy).Contents (Elt Ideal)) :
    val_main_v15 (F := Ideal) x = centralDiff (s := S4x16x128x128x16) (3 : Fin 5) x := by
  funext i
  rw [val_main_v15_apply, val_main_v11_apply, val_main_v14_apply, val_main_v10_apply, val_main_v13_apply,
    val_main_v9_apply, val_main_v12_apply, val_main_cst_2_apply, val_main_cst_3_apply]
  unfold val_main_v8
  rw [pad_read_below (s := S4x16x128x128x16) (t := S4x16x128x130x16) (3 : Fin 5) ![0, 0, 0, 1, 0] ![0, 0, 0, 1, 0] ![0, 0, 0, 0, 0] x
        (val_main_call1_v0 (F := Ideal)) _ _ (by decide) rfl (by decide) (pad_value_zero_3 _) i (idx_main_v9 i)
        (fun b => match b with
          | ⟨0, _⟩ => rfl | ⟨1, _⟩ => rfl | ⟨2, _⟩ => rfl | ⟨3, _⟩ => rfl | ⟨4, _⟩ => rfl),
      pad_read_above (s := S4x16x128x128x16) (t := S4x16x128x130x16) (3 : Fin 5) ![0, 0, 0, 1, 0] ![0, 0, 0, 1, 0] ![0, 0, 0, 0, 0] x
        (val_main_call1_v0 (F := Ideal)) _ _ (by decide) rfl (by decide) (pad_value_zero_3 _) i (idx_main_v12 i)
        (by show 2 + (i 3).val = (i 3).val + 2; omega)
        (fun b => match b with
          | ⟨0, _⟩ => fun _ => rfl
          | ⟨1, _⟩ => fun _ => rfl
          | ⟨2, _⟩ => fun _ => rfl
          | ⟨3, _⟩ => fun hb => absurd rfl hb
          | ⟨4, _⟩ => fun _ => rfl)]
  simp only [Ideal.addf_def, Ideal.mulf_def, Ideal.ofBits_def, ofBits_neg_one, ofBits_one]
  exact taps_eq_sub _ _

/-! ## Axis 1 -/

/-- The padding value of this axis's pad, the converted integer zero, is the extended real zero. -/
theorem pad_value_zero_1 (j : S_.Idx) : val_main_call2_v0 (F := Ideal) j = 0 := by
  show ((((0#32 : BitVec 32).toInt : ℤ) : ℝ) : EReal) = 0
  simp

/-- The reference's result for axis 1: -1 times the padded array at the index's own coordinates plus 1 times
    the padded array two further along the axis, that is, the neighbour above minus the neighbour below. -/
theorem ref_axis1 (x : (⟨S4x16x128x128x16, .f32⟩ : BufTy).Contents (Elt Ideal)) :
    val_main_v23 (F := Ideal) x = centralDiff (s := S4x16x128x128x16) (1 : Fin 5) x := by
  funext i
  rw [val_main_v23_apply, val_main_v19_apply, val_main_v22_apply, val_main_v18_apply, val_main_v21_apply,
    val_main_v17_apply, val_main_v20_apply, val_main_cst_5_apply, val_main_cst_6_apply]
  unfold val_main_v16
  rw [pad_read_below (s := S4x16x128x128x16) (t := S4x18x128x128x16) (1 : Fin 5) ![0, 1, 0, 0, 0] ![0, 1, 0, 0, 0] ![0, 0, 0, 0, 0] x
        (val_main_call2_v0 (F := Ideal)) _ _ (by decide) rfl (by decide) (pad_value_zero_1 _) i (idx_main_v17 i)
        (fun b => match b with
          | ⟨0, _⟩ => rfl | ⟨1, _⟩ => rfl | ⟨2, _⟩ => rfl | ⟨3, _⟩ => rfl | ⟨4, _⟩ => rfl),
      pad_read_above (s := S4x16x128x128x16) (t := S4x18x128x128x16) (1 : Fin 5) ![0, 1, 0, 0, 0] ![0, 1, 0, 0, 0] ![0, 0, 0, 0, 0] x
        (val_main_call2_v0 (F := Ideal)) _ _ (by decide) rfl (by decide) (pad_value_zero_1 _) i (idx_main_v20 i)
        (by show 2 + (i 1).val = (i 1).val + 2; omega)
        (fun b => match b with
          | ⟨0, _⟩ => fun _ => rfl
          | ⟨1, _⟩ => fun hb => absurd rfl hb
          | ⟨2, _⟩ => fun _ => rfl
          | ⟨3, _⟩ => fun _ => rfl
          | ⟨4, _⟩ => fun _ => rfl)]
  simp only [Ideal.addf_def, Ideal.mulf_def, Ideal.ofBits_def, ofBits_neg_one, ofBits_one]
  exact taps_eq_sub _ _

end Cert.ReferenceIdeal.RefDiff

end
-- ==== Proof.lean ====
/-
  A three-axis finite-difference stencil against its jnp reference, on the extended reals.

  The kernel computes, for an array x of shape [4,16,128,128,16] and each of the axes 2, 3 and 1, the central
  difference with zero padding: out[i] = x[i+1] - x[i-1] along the axis, x[1] at coordinate 0 and 0 - x[n-2] at
  the last coordinate n-1. It does so with one pallas_call per axis, each tiling the array into blocks that keep the
  differenced axis whole, the body storing the interior rows, the first row and the last row of its block.
  The reference pads the array with a zero on both sides of the axis and returns (-1) * (the slice starting
  at 0) + 1 * (the slice starting at 2).

  Both are ONE function of the argument, index by index: (the neighbour above, zero past the end) minus (the
  neighbour below, zero before the start). On the kernel's side u - 0 = u and a block spanning the axis make each
  stored piece a restriction of that function, and the blocks tile the array; on the reference's side
  (-1) * d + 1 * u = u - d. Both laws hold for every pair of extended reals, infinite ones included, so the
  precondition that the input is finite is never opened.

  The modules: LibCentralDiff (the function and its block law), LibCentralDiffPieces (the three stored
  rectangles), LibTwoTap (the literals 0, 1, -1 and the two-tap law), LibPadNeighbours (the reference's padding read
  as the two neighbours),
  DiffAxis2 / DiffAxis3 / DiffAxis1 (each pallas_call's result array), RegionsRun (the program's run with its
  three results named), RefDiff (the reference's three results).
-/
import proofs.«143421_j23957327577310_2_alg».proof.Defs
import proofs.«143421_j23957327577310_2_alg».proof.Proof.Gen.Kernel
import proofs.«143421_j23957327577310_2_alg».proof.Proof.Gen.Kernel.Skeleton
import proofs.«143421_j23957327577310_2_alg».proof.Proof.Gen.Kernel.Launch
import proofs.«143421_j23957327577310_2_alg».proof.Proof.Gen.Kernel.Points
import proofs.«143421_j23957327577310_2_alg».proof.Proof.Gen.Kernel.Frame
import proofs.«143421_j23957327577310_2_alg».proof.Proof.Gen.KernelIdeal
import proofs.«143421_j23957327577310_2_alg».proof.Proof.Gen.KernelIdeal.Skeleton
import proofs.«143421_j23957327577310_2_alg».proof.Proof.Gen.KernelIdeal.Launch
import proofs.«143421_j23957327577310_2_alg».proof.Proof.Gen.KernelIdeal.Points
import proofs.«143421_j23957327577310_2_alg».proof.Proof.Gen.KernelIdeal.Frame
import proofs.«143421_j23957327577310_2_alg».proof.Proof.Gen.ReferenceIdeal
import proofs.«143421_j23957327577310_2_alg».proof.Proof.Gen.ReferenceIdeal.Run
import proofs.«143421_j23957327577310_2_alg».proof.Proof.Gen.ReferenceIdeal.Read
import proofs.«143421_j23957327577310_2_alg».proof.Proof.Gen.Pre_finite_inputs
import proofs.«143421_j23957327577310_2_alg».proof.Proof.RegionsRun
import proofs.«143421_j23957327577310_2_alg».proof.Proof.DiffAxis2
import proofs.«143421_j23957327577310_2_alg».proof.Proof.DiffAxis3
import proofs.«143421_j23957327577310_2_alg».proof.Proof.DiffAxis1
import proofs.«143421_j23957327577310_2_alg».proof.Proof.RefDiff
import Idealize.ShloMosaic.Adequacy
import Idealize.ShloMosaic.Init

noncomputable section

namespace Cert.Proof

open Idealize.ShloMosaic Idealize.ShloMosaic.TcCoe Idealize.SL.Sem Cert.FiniteDiff

/-- The word-level kernel runs and leaves its argument alone. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its argument alone: its run with the three results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- Both programs end with the three central differences of the argument, along axes 2, 3 and 1. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => centralDiff (s := Cert.KernelIdeal.S4x16x128x128x16) (2 : Fin 5)
            (m ((c.tc : Thread Cert.KernelIdeal.nD Cert.KernelIdeal.τ).loc Cert.KernelIdeal.main_arg0)),
          fun c => centralDiff (s := Cert.KernelIdeal.S4x16x128x128x16) (3 : Fin 5)
            (m ((c.tc : Thread Cert.KernelIdeal.nD Cert.KernelIdeal.τ).loc Cert.KernelIdeal.main_arg0)),
          fun c => centralDiff (s := Cert.KernelIdeal.S4x16x128x128x16) (1 : Fin 5)
            (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Outputs.run (F := Ideal) m ρ)
    obtain ⟨h0, h1, h2, h3⟩ := h c
    exact ⟨h0.trans ((Cert.KernelIdeal.DiffAxis2.final (Cert.KernelIdeal.Gen.V0 m ρ) c).trans
              (congrArg (centralDiff (s := Cert.KernelIdeal.S4x16x128x128x16) (2 : Fin 5)) (Cert.KernelIdeal.Outputs.V0_main_arg0 m ρ c))),
           h1.trans ((Cert.KernelIdeal.DiffAxis3.final (Cert.KernelIdeal.Gen.V1 m ρ) c).trans
              (congrArg (centralDiff (s := Cert.KernelIdeal.S4x16x128x128x16) (3 : Fin 5)) (Cert.KernelIdeal.Outputs.V1_main_arg0 m ρ c))),
           h2.trans ((Cert.KernelIdeal.DiffAxis1.final (Cert.KernelIdeal.Gen.V2 m ρ) c).trans
              (congrArg (centralDiff (s := Cert.KernelIdeal.S4x16x128x128x16) (1 : Fin 5)) (Cert.KernelIdeal.Outputs.V2_main_arg0 m ρ c))),
           h3⟩
  · refine (θ_run Cert.ReferenceIdeal.defs _ _).mono (fun r h c => ?_) (Cert.ReferenceIdeal.Value.run (F := Ideal) m' ρ')
    obtain ⟨h0, h1, h2, h3⟩ := h c
    exact ⟨h0.trans ((Cert.ReferenceIdeal.Read.val_main_v7_eq _).trans ((Cert.ReferenceIdeal.RefDiff.ref_axis2 _).trans
              (congrArg (centralDiff (s := Cert.KernelIdeal.S4x16x128x128x16) (2 : Fin 5)) (hagree c)))),
           h1.trans ((Cert.ReferenceIdeal.Read.val_main_v15_eq _).trans ((Cert.ReferenceIdeal.RefDiff.ref_axis3 _).trans
              (congrArg (centralDiff (s := Cert.KernelIdeal.S4x16x128x128x16) (3 : Fin 5)) (hagree c)))),
           h2.trans ((Cert.ReferenceIdeal.Read.val_main_v23_eq _).trans ((Cert.ReferenceIdeal.RefDiff.ref_axis1 _).trans
              (congrArg (centralDiff (s := Cert.KernelIdeal.S4x16x128x128x16) (1 : Fin 5)) (hagree c)))),
           h3⟩

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
